-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S512x256x512 : Shape := ⟨3, ![512, 256, 512]⟩
abbrev S50000x128 : Shape := ⟨2, ![50000, 128]⟩
abbrev S_ : Shape := ⟨0, ![]⟩

class Facts : Prop where
  bcast_S_S512x256x512 : S_.BroadcastsInDim S512x256x512 (![] : Fin 0 → Fin S512x256x512.rank)
  reducesTo_S512x256x512_S_d0_1_2 : S512x256x512.ReducesTo [0, 1, 2] S_
  h_S_ : 0 < S_.numel
  bcast_S_S50000x128 : S_.BroadcastsInDim S50000x128 (![] : Fin 0 → Fin S50000x128.rank)
  reducesTo_S50000x128_S_d0_1 : S50000x128.ReducesTo [0, 1] S_

variable [Facts]

def fn {F : FTy → Type} [FloatOps F] (main_arg0 : IVec S512x256 32) (main_arg1 : FVec F S512x256x512 .f32) (main_arg2 : FVec F S50000x128 .f32) : IVec S_ 1 :=
  let main_v0 : FVec F S512x256x512 .f32 := Host.absf main_arg1
  let main_cst : FVec F S_ .f32 := constant S_ .f32 0x7F800000#32
  let main_v1 : FVec F S512x256x512 .f32 := broadcastInDim S512x256x512 ![] bcast_S_S512x256x512 main_cst
  let main_v2 : IVec S512x256x512 1 := cmpf .olt main_v0 main_v1
  let main_c : IVec S_ 1 := constantI S_ 1 1#1
  let main_v3 : IVec S_ 1 := (fun x v => Host.reduce IntOp.andi x v reducesTo_S512x256x512_S_d0_1_2 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  main_v8
-- ==== Kernel.lean ====
abbrev S512x256 : Shape := ⟨2, ![512, 256]⟩
abbrev S512x256x512 : Shape := ⟨3, ![512, 256, 512]⟩
abbrev S50000x128 : Shape := ⟨2, ![50000, 128]⟩
abbrev S_ : Shape := ⟨0, ![]⟩
abbrev S512x256x1 : Shape := ⟨3, ![512, 256, 1]⟩
abbrev S512x256x128 : Shape := ⟨3, ![512, 256, 128]⟩
abbrev S16x256x512 : Shape := ⟨3, ![16, 256, 512]⟩
abbrev S16x256x128 : Shape := ⟨3, ![16, 256, 128]⟩
abbrev S256x256 : Shape := ⟨2, ![256, 256]⟩
abbrev S1x256x256 : Shape := ⟨3, ![1, 256, 256]⟩
abbrev S256 : Shape := ⟨1, ![256]⟩
abbrev S1x256 : Shape := ⟨2, ![1, 256]⟩
abbrev S256x1 : Shape := ⟨2, ![256, 1]⟩
abbrev S1x256x128 : Shape := ⟨3, ![1, 256, 128]⟩
abbrev S256x128 : Shape := ⟨2, ![256, 128]⟩

abbrev nBuf : Space → Nat
  | .hbm => 13
  | .vmem => 6
  | .smem => 0
  | _ => 0

abbrev bufTy : (tb : Table) → Fin (tcTables nBuf tb) → BufTy
  | .hbm, ⟨0, _⟩ => ⟨S512x256, .i32⟩
  | .hbm, ⟨1, _⟩ => ⟨S512x256x512, .f32⟩
  | .hbm, ⟨2, _⟩ => ⟨S50000x128, .f32⟩
  | .hbm, ⟨3, _⟩ => ⟨S_, .i32⟩
  | .hbm, ⟨4, _⟩ => ⟨S512x256, .i32⟩
  | .hbm, ⟨5, _⟩ => ⟨S512x256, .i1⟩
  | .hbm, ⟨6, _⟩ => ⟨S_, .i32⟩
  | .hbm, ⟨7, _⟩ => ⟨S512x256, .i32⟩
  | .hbm, ⟨8, _⟩ => ⟨S512x256, .i32⟩
  | .hbm, ⟨9, _⟩ => ⟨S512x256, .i32⟩
  | .hbm, ⟨10, _⟩ => ⟨S512x256x1, .i32⟩
  | .hbm, ⟨11, _⟩ => ⟨S512x256x128, .f32⟩
  | .hbm, ⟨12, _⟩ => ⟨S512x256x128, .f32⟩
  | .local _ .vmem, ⟨0, _⟩ => ⟨S16x256x512, .f32⟩
  | .local _ .vmem, ⟨1, _⟩ => ⟨S16x256x512, .f32⟩
  | .local _ .vmem, ⟨2, _⟩ => ⟨S16x256x128, .f32⟩
  | .local _ .vmem, ⟨3, _⟩ => ⟨S16x256x128, .f32⟩
  | .local _ .vmem, ⟨4, _⟩ => ⟨S16x256x128, .f32⟩
  | .local _ .vmem, ⟨5, _⟩ => ⟨S16x256x128, .f32⟩
  | _, _ => ⟨S512x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c16_i32 : BitVec 32 := 16#32
  let v11 : BitVec 32 := Scalar.addi c0_i32 c16_i32
  let c1_i32 : BitVec 32 := 1#32
  ⟨c0_i32, v11, c1_i32⟩
def k0_off1 (k0_t1 : Fin k0_t1_loop.trips) : Fin 3 → Nat :=
  let c0_i32_4 : BitVec 32 := 0#32
  let c0_i32 : BitVec 32 := 0#32
  let c1_i32 : BitVec 32 := 1#32
  let arg4 : BitVec 32 := Scf.iv c0_i32 c1_i32 k0_t1
  let c1_i32_3 : BitVec 32 := 1#32
  let v12 : BitVec 32 := Scalar.muli arg4 c1_i32_3
  let v13 : BitVec 32 := Scalar.addi c0_i32_4 v12
  let v14 : Index := Scalar.indexCast v13
  let c0 : Index := 0#32
  let c0_5 : Index := 0#32
  ![v14.toNat, 0, 0]
def k0_off2 (k0_t1 : Fin k0_t1_loop.trips) : Fin 3 → Nat :=
  let c0_i32_4 : BitVec 32 := 0#32
  let c0_i32 : BitVec 32 := 0#32
  let c1_i32 : BitVec 32 := 1#32
  let arg4 : BitVec 32 := Scf.iv c0_i32 c1_i32 k0_t1
  let c1_i32_3 : BitVec 32 := 1#32
  let v12 : BitVec 32 := Scalar.muli arg4 c1_i32_3
  let v13 : BitVec 32 := Scalar.addi c0_i32_4 v12
  let v17 : Index := Scalar.indexCast v13
  let c0_6 : Index := 0#32
  let c256 : Index := 256#32
  ![v17.toNat, 0, 256]
def k0_off3 (k0_t1 : Fin k0_t1_loop.trips) : Fin 3 → Nat :=
  let c0_i32_4 : BitVec 32 := 0#32
  let c0_i32 : BitVec 32 := 0#32
  let c1_i32 : BitVec 32 := 1#32
  let arg4 : BitVec 32 := Scf.iv c0_i32 c1_i32 k0_t1
  let c1_i32_3 : BitVec 32 := 1#32
  let v12 : BitVec 32 := Scalar.muli arg4 c1_i32_3
  let v13 : BitVec 32 := Scalar.addi c0_i32_4 v12
  let v37 : Index := Scalar.indexCast v13
  let c0_10 : Index := 0#32
  let c0_11 : Index := 0#32
  ![v37.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S512x256 : S_.BroadcastsInDim S512x256 (![] : Fin 0 → Fin S512x256.rank)
  bcast_S512x256_S512x256x1_0_1 : S512x256.BroadcastsInDim S512x256x1 (![0, 1] : Fin 2 → Fin S512x256x1.rank)
  iota_S256x256_d0_w32 : S256x256.Iotas .tc 32 [0]
  iota_S256x256_d1_w32 : S256x256.Iotas .tc 32 [1]
  natLt_1_32 : 1 < 32
  h_S1x256x256 : 0 < S1x256x256.numel
  shapeCasts_S1x256x256_S256x256 : S1x256x256.ShapeCasts S256x256
  reduces_S256x256_S256 : S256x256.Reduces [1] S256
  shapeCasts_S256_S1x256 : S256.ShapeCasts S1x256
  broadcasts_S1x256_S256x256 : S1x256.Broadcasts S256x256
  shapeCasts_S256_S256x1 : S256.ShapeCasts S256x1
  broadcasts_S256x1_S256x256 : S256x1.Broadcasts S256x256
  bitsLt_bf16_f32 : FTy.bits .bf16 < FTy.bits .f32
  h_S1x256x128 : 0 < S1x256x128.numel
  shapeCasts_S1x256x128_S256x128 : S1x256x128.ShapeCasts S256x128
  shapeCasts_S256x128_S1x256x128 : S256x128.ShapeCasts S1x256x128
  gather_S50000x128_S512x256x1_S512x256x128_2_0_n_n_0_2_1128_wf : GatherDims.WF S50000x128 S512x256x1 S512x256x128 [2] [0] [] [0] [] 2 ![1, 128]
  dot_S256x256_S256x128_S256x128_1_0_0_1_n_n_wf : DotDims.WF S256x256 S256x128 S256x128 [1] [0] [0] [1] [] []
  hrank0 : 0 < grid0.rank
  k0_t1_ok : k0_t1_loop.OK
  k0_off1_inb : ∀ k0_t1 : Fin k0_t1_loop.trips, ∀ a, (k0_off1 k0_t1) a + S1x256x256.size a ≤ S16x256x512.size a
  k0_off2_inb : ∀ k0_t1 : Fin k0_t1_loop.trips, ∀ a, (k0_off2 k0_t1) a + S1x256x256.size a ≤ S16x256x512.size a
  k0_off3_inb : ∀ k0_t1 : Fin k0_t1_loop.trips, ∀ a, (k0_off3 k0_t1) a + S1x256x128.size a ≤ S16x256x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x512.size a ≤ S512x256x512.size a
  hwx0_0 : ∀ i : grid0.Coords, EltTy.bits .f32 = 32 ∨ (Rect.block (s := S512x256x512) S16x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x128.size a ≤ S512x256x128.size a
  hwx0_1 : ∀ i : grid0.Coords, EltTy.bits .f32 = 32 ∨ (Rect.block (s := S512x256x128) S16x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256x128.size a ≤ S512x256x128.size a
  hwx0_2 : ∀ i : grid0.Coords, EltTy.bits .f32 = 32 ∨ (Rect.block (s := S512x256x128) S16x256x128.size (cc0_transform_2 i) (hinb0_2 i)).WholeWords (EltTy.packing .f32)

variable [Facts₀]

def gather_S50000x128_S512x256x1_S512x256x128_2_0_n_n_0_2_1128 : GatherDims S50000x128 S512x256x1 S512x256x128 where
  offsetDims := [2]
  collapsedSliceDims := [0]
  operandBatchingDims := []
  startIndicesBatchingDims := []
  startIndexMap := [0]
  indexVectorDim := 2
  sliceSizes := ![1, 128]
  wf := gather_S50000x128_S512x256x1_S512x256x128_2_0_n_n_0_2_1128_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf

abbrev win0_0 : Pipeline.Window sig grid0 :=
  Pipeline.Window.ofSpec (Memref.whole main_arg1) S16x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S16x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S16x256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x256 : Shape := ⟨2, ![512, 256]⟩
abbrev S512x256x512 : Shape := ⟨3, ![512, 256, 512]⟩
abbrev S50000x128 : Shape := ⟨2, ![50000, 128]⟩
abbrev S_ : Shape := ⟨0, ![]⟩
abbrev S512x256x1 : Shape := ⟨3, ![512, 256, 1]⟩
abbrev S512x256x128 : Shape := ⟨3, ![512, 256, 128]⟩
abbrev S512x256x256 : Shape := ⟨3, ![512, 256, 256]⟩
abbrev S256x256 : Shape := ⟨2, ![256, 256]⟩
abbrev S1x256x256 : Shape := ⟨3, ![1, 256, 256]⟩
abbrev S512x1x256 : Shape := ⟨3, ![512, 1, 256]⟩

abbrev nBuf : Space → Nat
  | .hbm => 59
  | .vmem => 0
  | .smem => 0
  | _ => 0

abbrev bufTy : (tb : Table) → Fin (tcTables nBuf tb) → BufTy
  | .hbm, ⟨0, _⟩ => ⟨S512x256, .i32⟩
  | .hbm, ⟨1, _⟩ => ⟨S512x256x512, .f32⟩
  | .hbm, ⟨2, _⟩ => ⟨S50000x128, .f32⟩
  | .hbm, ⟨3, _⟩ => ⟨S_, .i32⟩
  | .hbm, ⟨4, _⟩ => ⟨S512x256, .i32⟩
  | .hbm, ⟨5, _⟩ => ⟨S512x256, .i1⟩
  | .hbm, ⟨6, _⟩ => ⟨S_, .i32⟩
  | .hbm, ⟨7, _⟩ => ⟨S512x256, .i32⟩
  | .hbm, ⟨8, _⟩ => ⟨S512x256, .i32⟩
  | .hbm, ⟨9, _⟩ => ⟨S512x256, .i32⟩
  | .hbm, ⟨10, _⟩ => ⟨S512x256x1, .i32⟩
  | .hbm, ⟨11, _⟩ => ⟨S512x256x128, .f32⟩
  | .hbm, ⟨12, _⟩ => ⟨S512x256x256, .f32⟩
  | .hbm, ⟨13, _⟩ => ⟨S512x256x256, .f32⟩
  | .hbm, ⟨14, _⟩ => ⟨S512x256x256, .f32⟩
  | .hbm, ⟨15, _⟩ => ⟨S256x256, .i32⟩
  | .hbm, ⟨16, _⟩ => ⟨S256x256, .i32⟩
  | .hbm, ⟨17, _⟩ => ⟨S_, .i32⟩
  | .hbm, ⟨18, _⟩ => ⟨S256x256, .i32⟩
  | .hbm, ⟨19, _⟩ => ⟨S256x256, .i32⟩
  | .hbm, ⟨20, _⟩ => ⟨S256x256, .i1⟩
  | .hbm, ⟨21, _⟩ => ⟨S256x256, .f32⟩
  | .hbm, ⟨22, _⟩ => ⟨S1x256x256, .f32⟩
  | .hbm, ⟨23, _⟩ => ⟨S512x256x256, .f32⟩
  | .hbm, ⟨24, _⟩ => ⟨S512x256x256, .f32⟩
  | .hbm, ⟨25, _⟩ => ⟨S_, .f32⟩
  | .hbm, ⟨26, _⟩ => ⟨S512x256, .f32⟩
  | .hbm, ⟨27, _⟩ => ⟨S_, .f32⟩
  | .hbm, ⟨28, _⟩ => ⟨S512x256, .f32⟩
  | .hbm, ⟨29, _⟩ => ⟨S512x256, .f32⟩
  | .hbm, ⟨30, _⟩ => ⟨S512x256, .f32⟩
  | .hbm, ⟨31, _⟩ => ⟨S_, .f32⟩
  | .hbm, ⟨32, _⟩ => ⟨S512x256, .f32⟩
  | .hbm, ⟨33, _⟩ => ⟨S512x256, .i1⟩
  | .hbm, ⟨34, _⟩ => ⟨S_, .f32⟩
  | .hbm, ⟨35, _⟩ => ⟨S_, .f32⟩
  | .hbm, ⟨36, _⟩ => ⟨S512x256, .f32⟩
  | .hbm, ⟨37, _⟩ => ⟨S512x256, .f32⟩
  | .hbm, ⟨38, _⟩ => ⟨S512x256x1, .f32⟩
  | .hbm, ⟨39, _⟩ => ⟨S512x256x256, .f32⟩
  | .hbm, ⟨40, _⟩ => ⟨S512x256x256, .f32⟩
  | .hbm, ⟨41, _⟩ => ⟨S512x1x256, .f32⟩
  | .hbm, ⟨42, _⟩ => ⟨S512x256x256, .f32⟩
  | .hbm, ⟨43, _⟩ => ⟨S512x256x256, .f32⟩
  | .hbm, ⟨44, _⟩ => ⟨S_, .f32⟩
  | .hbm, ⟨45, _⟩ => ⟨S512x256x256, .f32⟩
  | .hbm, ⟨46, _⟩ => ⟨S512x256x256, .f32⟩
  | .hbm, ⟨47, _⟩ => ⟨S_, .f32⟩
  | .hbm, ⟨48, _⟩ => ⟨S512x256x256, .f32⟩
  | .hbm, ⟨49, _⟩ => ⟨S512x256x256, .f32⟩
  | .hbm, ⟨50, _⟩ => ⟨S_, .f32⟩
  | .hbm, ⟨51, _⟩ => ⟨S512x256x256, .f32⟩
  | .hbm, ⟨52, _⟩ => ⟨S512x256x256, .f32⟩
  | .hbm, ⟨53, _⟩ => ⟨S1x256x256, .f32⟩
  | .hbm, ⟨54, _⟩ => ⟨S512x256x256, .f32⟩
  | .hbm, ⟨55, _⟩ => ⟨S512x256x256, .f32⟩
  | .hbm, ⟨56, _⟩ => ⟨S512x256x256, .f32⟩
  | .hbm, ⟨57, _⟩ => ⟨S512x256x128, .f32⟩
  | .hbm, ⟨58, _⟩ => ⟨S512x256x128, .f32⟩
  | _, _ => ⟨S512x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_cst : Ref sig .tc := ⟨.hbm, 31, rfl⟩
abbrev main_call0_v1 : Ref sig .tc := ⟨.hbm, 32, rfl⟩
abbrev main_v22 : Ref sig .tc := ⟨.hbm, 33, rfl⟩
abbrev main_cst_3 : Ref sig .tc := ⟨.hbm, 34, rfl⟩
abbrev main_call1_v0 : Ref sig .tc := ⟨.hbm, 35, rfl⟩
abbrev main_call1_v1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]

class Facts₀ : Prop where
  bcast_S_S512x256 : S_.BroadcastsInDim S512x256 (![] : Fin 0 → Fin S512x256.rank)
  bcast_S512x256_S512x256x1_0_1 : S512x256.BroadcastsInDim S512x256x1 (![0, 1] : Fin 2 → Fin S512x256x1.rank)
  slices_S512x256x512_S512x256x256_0_0_0 : S512x256x512.Slices ![0, 0, 0] S512x256x256
  slices_S512x256x512_S512x256x256_0_0_256 : S512x256x512.Slices ![0, 0, 256] S512x256x256
  bcast_S_S256x256 : S_.BroadcastsInDim S256x256 (![] : Fin 0 → Fin S256x256.rank)
  bcast_S256x256_S1x256x256_1_2 : S256x256.BroadcastsInDim S1x256x256 (![1, 2] : Fin 2 → Fin S1x256x256.rank)
  bcast_S1x256x256_S512x256x256_0_1_2 : S1x256x256.BroadcastsInDim S512x256x256 (![0, 1, 2] : Fin 3 → Fin S512x256x256.rank)
  reducesTo_S512x256x256_S512x256_d2 : S512x256x256.ReducesTo [2] S512x256
  h_S_ : 0 < S_.numel
  bcast_S512x256x1_S512x256x256_0_1_2 : S512x256x1.BroadcastsInDim S512x256x256 (![0, 1, 2] : Fin 3 → Fin S512x256x256.rank)
  bcast_S512x256_S512x1x256_0_2 : S512x256.BroadcastsInDim S512x1x256 (![0, 2] : Fin 2 → Fin S512x1x256.rank)
  bcast_S512x1x256_S512x256x256_0_1_2 : S512x1x256.BroadcastsInDim S512x256x256 (![0, 1, 2] : Fin 3 → Fin S512x256x256.rank)
  bcast_S_S512x256x256 : S_.BroadcastsInDim S512x256x256 (![] : Fin 0 → Fin S512x256x256.rank)
  gather_S50000x128_S512x256x1_S512x256x128_2_0_n_n_0_2_1128_wf : GatherDims.WF S50000x128 S512x256x1 S512x256x128 [2] [0] [] [0] [] 2 ![1, 128]
  dot_S512x256x256_S512x256x128_S512x256x128_2_1_1_2_0_0_wf : DotDims.WF S512x256x256 S512x256x128 S512x256x128 [2] [1] [1] [2] [0] [0]

variable [Facts₀]

def gather_S50000x128_S512x256x1_S512x256x128_2_0_n_n_0_2_1128 : GatherDims S50000x128 S512x256x1 S512x256x128 where
  offsetDims := [2]
  collapsedSliceDims := [0]
  operandBatchingDims := []
  startIndicesBatchingDims := []
  startIndexMap := [0]
  indexVectorDim := 2
  sliceSizes := ![1, 128]
  wf := gather_S50000x128_S512x256x1_S512x256x128_2_0_n_n_0_2_1128_wf
def dot_S512x256x256_S512x256x128_S512x256x128_2_1_1_2_0_0 : DotDims S512x256x256 S512x256x128 S512x256x128 where
  lhsContracting := [2]
  rhsContracting := [1]
  lhsNonContracting := [1]
  rhsNonContracting := [2]
  lhsBatch := [0]
  rhsBatch := [0]
  wf := dot_S512x256x256_S512x256x128_S512x256x128_2_1_1_2_0_0_wf

class Facts : Prop extends Facts₀ where

variable [Facts]
-- ==== Proof.RealLaws.lean ====
/-
  Facts about extended reals that join the two programs, none of them about memory or indices.

  * `r ^ (-1/2)` on the reals is `(√r)⁻¹` for `r > 0` and `0` for `r ≤ 0`: at `0` the power of zero to a
    non-zero exponent is zero, and below zero the real power is `exp (y log |r|) · cos (π y)`, whose cosine
    factor vanishes at `y = -1/2`.
  * Hence the two spellings of the degree normalizer agree on every real row sum: "if the sum is positive its
    reciprocal square root, else zero" and "the sum to the power -1/2, with an infinite value replaced by zero"
    (the power of a real is a real, so the replacement never happens).
  * For real `n, a, b` and `e ∈ {0, 1}`: `n (a - b e) + b e = a n + (b (1 - n)) e` — distributivity, which holds
    because every factor is finite.
  * The few float literals whose VALUE matters (0, 1, -1/2, +∞) and that the two mixing weights are real.
  * An identity-matrix entry made from a comparison of two coordinates below 2³² is `1` on the diagonal and `0` off it,
    whether the comparison bit is read signed after zero extension or unsigned.
-/
import Idealize.ShloMosaic.PureOps.Ideal
import Idealize.ShloMosaic.PureOps.Ideal.Laws
import Idealize.ShloMosaic.Lib.ValueIdx

noncomputable section

namespace Cert.Proof.RealLaws

open Idealize.ShloMosaic

/-! ## The power `r ^ (-1/2)` -/

/-- `r ^ (-1/2) = (√r)⁻¹` for positive `r`, and `0` otherwise. -/
theorem rpow_neg_half (r : ℝ) : Real.rpow r (-(1 / 2)) = if 0 < r then (Real.sqrt r)⁻¹ else 0 := by
  split_ifs with h
  · show r ^ (-(1 / 2 : ℝ)) = _
    rw [Real.rpow_neg h.le, Real.sqrt_eq_rpow]
  · rcases (not_lt.mp h).eq_or_lt with h0 | hneg
    · rw [h0]
      exact Real.zero_rpow (by norm_num)
    · show r ^ (-(1 / 2 : ℝ)) = 0
      rw [Real.rpow_def_of_neg hneg]
      have hc : Real.cos (-(1 / 2) * Real.pi) = 0 := by
        rw [show -(1 / 2 : ℝ) * Real.pi = -(Real.pi / 2) by ring, Real.cos_neg, Real.cos_pi_div_two]
      rw [hc, mul_zero]

/-! ## Literals -/

theorem lit_neg_half : Ideal.ofBits .f32 0xBF000000#32 = ((-(1 / 2) : ℝ) : EReal) := by
  simp [Ideal.ofBits, Ideal.ieee, -EReal.coe_mul, -EReal.coe_neg]
  norm_num

theorem lit_top : Ideal.ofBits .f32 0x7F800000#32 = ⊤ := by
  simp [Ideal.ofBits, Ideal.ieee]

theorem lit_one : Ideal.ofBits .f32 0x3F800000#32 = ((1 : ℝ) : EReal) := by
  simp [Ideal.ofBits, Ideal.ieee, -EReal.coe_mul]
  norm_num

/-- The two mixing weights are real numbers; their values never matter, the same words stand on both sides. -/
theorem lit_alpha_real : ∃ a : ℝ, Ideal.ofBits .f32 0x3F4CCCCD#32 = (a : EReal) := by
  simp [Ideal.ofBits, Ideal.ieee, -EReal.coe_mul]

theorem lit_beta_real : ∃ b : ℝ, Ideal.ofBits .f32 0x3DCCCCCD#32 = (b : EReal) := by
  simp [Ideal.ofBits, Ideal.ieee, -EReal.coe_mul]

/-! ## The degree normalizer, spelled two ways -/

/-- `(√r)⁻¹` for a positive row sum `r`, zero otherwise: what both spellings compute on the reals. -/
def invSqrtPos (r : ℝ) : ℝ := if 0 < r then (Real.sqrt r)⁻¹ else 0

/-- "Where the sum is positive its reciprocal square root, else zero." -/
def normSel (r : EReal) : EReal :=
  Scalar.select (Ideal.cmp .ogt r (Ideal.ofBits .f32 0x00000000#32)) (Ideal.rsqrt r) (Ideal.ofBits .f32 0x00000000#32)

/-- "The sum to the power -1/2, an infinite value replaced by zero." -/
def normPow (r : EReal) : EReal :=
  Scalar.select
    (Ideal.cmp .oeq (max (Ideal.pow r (Ideal.ofBits .f32 0xBF000000#32)) (-(Ideal.pow r (Ideal.ofBits .f32 0xBF000000#32))))
      (Ideal.ofBits .f32 0x7F800000#32))
    (Ideal.ofBits .f32 0x00000000#32) (Ideal.pow r (Ideal.ofBits .f32 0xBF000000#32))

theorem normSel_coe (r : ℝ) : normSel r = ((invSqrtPos r : ℝ) : EReal) := by
  unfold normSel invSqrtPos
  rw [Ideal.ofBits_zero_f32]
  by_cases h : 0 < r
  · have h' : (0 : EReal) < (r : EReal) := by exact_mod_cast h
    have hc : Ideal.cmp .ogt (r : EReal) 0 = 1#1 := by simp [Ideal.cmp, h']
    rw [hc, ValueIdx.select_one, if_pos h, Ideal.rsqrt_coe, if_neg (not_lt.mpr h.le), if_neg h.ne']
  · have h' : ¬ (0 : EReal) < (r : EReal) := by exact_mod_cast h
    have hc : Ideal.cmp .ogt (r : EReal) 0 = 0#1 := by simp [Ideal.cmp, h']
    rw [hc, ValueIdx.select_zero, if_neg h, EReal.coe_zero]

/-- The magnitude of a real is not `+∞`. -/
theorem abs_coe_ne_top (x : ℝ) : max (x : EReal) (-(x : EReal)) ≠ ⊤ := by
  rcases max_choice (x : EReal) (-(x : EReal)) with h | h <;> rw [h]
  · exact EReal.coe_ne_top _
  · rw [← EReal.coe_neg]; exact EReal.coe_ne_top _

theorem normPow_coe (r : ℝ) : normPow r = ((invSqrtPos r : ℝ) : EReal) := by
  unfold normPow
  rw [lit_neg_half, lit_top, Ideal.ofBits_zero_f32, Ideal.pow_coe_coe, rpow_neg_half]
  have hc : Ideal.cmp .oeq (max ((invSqrtPos r : ℝ) : EReal) (-((invSqrtPos r : ℝ) : EReal))) ⊤ = 0#1 := by
    simp [Ideal.cmp, abs_coe_ne_top]
  exact (congrArg (fun c => Scalar.select c (0 : EReal) ((invSqrtPos r : ℝ) : EReal)) hc).trans (ValueIdx.select_zero _ _)

/-- The two spellings agree on every real row sum. -/
theorem normPow_eq_normSel (r : ℝ) : normPow r = normSel r := by rw [normPow_coe, normSel_coe]

/-! ## The mix -/

/-- `n (a - b e) + b e = a n + (b (1 - n)) e` on the reals, read in the extended reals. -/
theorem mix_eq (n a b e : ℝ) :
    (n : EReal) * ((a : EReal) - (b : EReal) * (e : EReal)) + (b : EReal) * (e : EReal)
      = (a : EReal) * (n : EReal) + (b : EReal) * (((1 : ℝ) : EReal) - (n : EReal)) * (e : EReal) := by
  simp only [← EReal.coe_mul, ← EReal.coe_sub, ← EReal.coe_add]
  congr 1
  ring

/-! ## An entry of the identity matrix -/

/-- Entry `(p, q)` of the identity matrix, as a real. -/
def eye (p q : ℕ) : ℝ := if p = q then 1 else 0

theorem ofNat_eq_iff (p q : ℕ) (hp : p < 256) (hq : q < 256) : BitVec.ofNat 32 p = BitVec.ofNat 32 q ↔ p = q := by
  constructor
  · intro h
    have := congrArg BitVec.toNat h
    simp only [BitVec.toNat_ofNat] at this
    omega
  · rintro rfl; rfl

/-- The comparison bit zero-extended and read signed. -/
theorem eye_signed (p q : ℕ) (hp : p < 256) (hq : q < 256) :
    FloatOps.sitofp (F := Ideal) .f32 ((IntOp.cmpi .eq (BitVec.ofNat 32 p) (BitVec.ofNat 32 q)).setWidth 32) = ((eye p q : ℝ) : EReal) := by
  show (((((IntOp.cmpi .eq (BitVec.ofNat 32 p) (BitVec.ofNat 32 q)).setWidth 32).toInt : ℤ) : ℝ) : EReal) = _
  unfold eye IntOp.cmpi
  by_cases h : p = q
  · subst h; simp
  · have hb : (BitVec.ofNat 32 p == BitVec.ofNat 32 q) = false := by
      simpa using (fun hh => h ((ofNat_eq_iff p q hp hq).mp hh))
    simp [hb, h]

/-- The comparison bit read unsigned, one coordinate having had an integer zero added. -/
theorem eye_unsigned (p q : ℕ) (hp : p < 256) (hq : q < 256) :
    FloatOps.uitofp (F := Ideal) .f32 (IntOp.cmpi .eq (IntOp.addi (BitVec.ofNat 32 p) 0#32) (BitVec.ofNat 32 q)) = ((eye p q : ℝ) : EReal) := by
  show ((((IntOp.cmpi .eq (IntOp.addi (BitVec.ofNat 32 p) 0#32) (BitVec.ofNat 32 q)).toNat : ℕ) : ℝ) : EReal) = _
  have ha : IntOp.addi (BitVec.ofNat 32 p) 0#32 = BitVec.ofNat 32 p := by simp [IntOp.addi]
  rw [ha]
  unfold eye IntOp.cmpi
  by_cases h : p = q
  · subst h; simp
  · have hb : (BitVec.ofNat 32 p == BitVec.ofNat 32 q) = false := by
      simpa using (fun hh => h ((ofNat_eq_iff p q hp hq).mp hh))
    simp [hb, h]

end Cert.Proof.RealLaws

end
-- ==== Proof.Propagate.lean ====
/-
  One sample of the graph propagation, as mathematics on the extended reals.

  A sample has two 256 × 256 adjacency halves `P`, `Q` and 256 node features of width 128, `h`. With
  `adj = P + Q + I` (self loops added) and `s i = ∑ j, adj i j` (the degree of node `i`), the symmetric
  normalization is `norm i j = adj i j · d i · d j` with `d i = s i ^ (-1/2)`, the mixing matrix is
  `M = α · norm + β · (1 - norm) ∘ I`, and the result is two propagation rounds, `M · (M · h)`.

  The mixing matrix is spelled in two arrangements:
  * `mixSel`: `d i` is "the reciprocal square root of `s i` where `s i > 0`, else `0`", the column factor `d j` is
    applied before the row factor `d i`, and the mix is the fused `norm · (α - β I) + β I`;
  * `mixPow`: `d i` is "`s i ^ (-1/2)`, replaced by `0` where it is infinite", the row factor comes first, and the mix
    is `α · norm + (β · (1 - norm)) · I`.
  They are the same matrix whenever the adjacency halves are finite (`mixPow_eq_mixSel`): every row sum is then a
  real number, the two normalizers agree on reals, and the rest is commutativity and distributivity of real
  arithmetic — which is where finiteness is needed, since distributivity fails at the infinities.
-/
import proofs.«117473_j51367808860292_2_alg».proof.Proof.RealLaws

noncomputable section

namespace Cert.Proof.Propagate

open Idealize.ShloMosaic Cert.Proof.RealLaws

/-- The two mixing weights, as the float words both programs carry (`α`, `β`). -/
abbrev wA : EReal := Ideal.ofBits .f32 0x3F4CCCCD#32
abbrev wB : EReal := Ideal.ofBits .f32 0x3DCCCCCD#32

/-- Entry `(i, j)` of the 256 × 256 identity. -/
def eyeE (i j : Fin 256) : EReal := ((eye i.val j.val : ℝ) : EReal)

section Mix
variable (P Q : Fin 256 → Fin 256 → EReal)

/-- The adjacency with self loops. -/
def adj (i j : Fin 256) : EReal := (P i j + Q i j) + eyeE i j

/-- The degree of node `i`. -/
def rowSum (i : Fin 256) : EReal := ∑ j : Fin 256, adj P Q i j

/-- The mixing matrix, column factor first, the mix fused. -/
def mixSel (i j : Fin 256) : EReal :=
  ((adj P Q i j * normSel (rowSum P Q j)) * normSel (rowSum P Q i)) * (wA - wB * eyeE i j) + wB * eyeE i j

/-- The mixing matrix, row factor first, the mix term by term. -/
def mixPow (i j : Fin 256) : EReal :=
  wA * ((adj P Q i j * normPow (rowSum P Q i)) * normPow (rowSum P Q j))
    + (wB * (Ideal.ofBits .f32 0x3F800000#32 - (adj P Q i j * normPow (rowSum P Q i)) * normPow (rowSum P Q j))) * eyeE i j

end Mix

/-- Two propagation rounds with mixing matrix `M`: `M · (M · h)`. -/
def twoRounds (M : Fin 256 → Fin 256 → EReal) (h : Fin 256 → Fin 128 → EReal) (i : Fin 256) (d : Fin 128) : EReal :=
  ∑ j : Fin 256, M i j * ∑ k : Fin 256, M j k * h k d

/-- A finite sum of reals, read in the extended reals, is the real sum. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- On finite adjacency halves the two arrangements are the same matrix. -/
theorem mixPow_eq_mixSel (P Q : Fin 256 → Fin 256 → EReal) (hP : ∀ i j, ∃ r : ℝ, P i j = (r : EReal))
    (hQ : ∀ i j, ∃ r : ℝ, Q i j = (r : EReal)) (i j : Fin 256) : mixPow P Q i j = mixSel P Q i j := by
  choose p hp using hP
  choose q hq using hQ
  obtain ⟨a, ha⟩ := lit_alpha_real
  obtain ⟨b, hb⟩ := lit_beta_real
  have hadj : ∀ i j, adj P Q i j = ((p i j + q i j + eye i.val j.val : ℝ) : EReal) := fun i j => by
    unfold adj eyeE; rw [hp, hq, ← EReal.coe_add, ← EReal.coe_add]
  have hrow : ∀ i, rowSum P Q i = ((∑ j : Fin 256, (p i j + q i j + eye i.val j.val) : ℝ) : EReal) := fun i => by
    unfold rowSum; simp only [hadj]; exact sum_coe _ _
  unfold mixPow mixSel eyeE
  simp only [hadj, hrow, normPow_coe, normSel_coe, wA, wB, ha, hb, lit_one]
  simp only [← EReal.coe_mul, ← EReal.coe_add, ← EReal.coe_sub]
  congr 1
  ring

end Cert.Proof.Propagate

end
-- ==== Proof.Payload.lean ====
/-
  What one trip of the kernel's loop stores, read entry by entry.

  A trip loads one sample: the two 256 × 256 halves of its adjacency (as [1, 256, 256] slabs `x`, `y`) and its
  [1, 256, 128] feature slab `z`, and stores a [1, 256, 128] slab. Entry `(·, r, d)` of what it stores is two
  propagation rounds `M · (M · h)` at `(r, d)`, with `M` the mixing matrix in the column-factor-first, fused-mix
  arrangement (`Propagate.mixSel`) of the halves `P i j = x (0, i, j)`, `Q i j = y (0, i, j)`, and `h k d = z (0, k, d)`.

  The stored value is cut into named stages — the identity matrix, the adjacency with self loops, the normalizer,
  the mixing matrix, one matrix product — and each stage is read at an index: the identity from a comparison of two
  coordinate arrays; a row sum as a sum over the column coordinate; the normalizer spread along rows ([256] → [1, 256] →
  [256, 256]) and along columns ([256] → [256, 1] → [256, 256]); a matrix product into a zero accumulator as the sum
  over the contracted coordinate. Narrowing to bf16 before the products is the identity on extended reals.
-/
import proofs.«117473_j51367808860292_2_alg».proof.Proof.Gen.KernelIdeal.Skeleton
import proofs.«117473_j51367808860292_2_alg».proof.Proof.Propagate
import Idealize.ShloMosaic.Lib.ValueIdx
import Idealize.ShloMosaic.Lib.ValueLayout
import Idealize.ShloMosaic.Lib.Pipeline.Value
import Idealize.ShloMosaic.PureOps.Ideal.Laws

noncomputable section

namespace Cert.Proof.Payload

open Cert.KernelIdeal Idealize.ShloMosaic Idealize.ShloMosaic.ValueIdx Cert.Proof.RealLaws Cert.Proof.Propagate

/-! ## Two layout facts: a vector as a column, a column spread over columns -/

/-- A length-`a` vector viewed as an `[a, 1]` column reads `(i, ·)` at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads `(p, c)` at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The stages of the stored value -/

section Stages

variable (x y : Vec Ideal S1x256x256 .f32) (z : Vec Ideal S1x256x128 .f32)

/-- The 256 × 256 identity: row coordinate compared with column coordinate, the bit widened and converted. -/
def eyeV : FVec Ideal S256x256 .f32 :=
  sitofp .f32 (extui 32 (cmpi .eq (iota .tc S256x256 32 [0] Gen.iota_S256x256_d0_w32) (iota .tc S256x256 32 [1] Gen.iota_S256x256_d1_w32)) Gen.natLt_1_32)

/-- The adjacency with self loops: the two halves added, then the identity. -/
def adjV : FVec Ideal S256x256 .f32 :=
  addf (addf (shapeCast S256x256 x Gen.shapeCasts_S1x256x256_S256x256) (shapeCast S256x256 y Gen.shapeCasts_S1x256x256_S256x256)) eyeV

/-- The degrees: row sums. -/
def degV : FVec Ideal S256 .f32 :=
  multiReduction .add [1] S256 (adjV x y) 0x00000000#32 Gen.reduces_S256x256_S256 (.inl rfl) rfl

/-- The normalizer: the reciprocal square root of a positive degree, zero otherwise. -/
def normV : FVec Ideal S256 .f32 :=
  select (cmpf .ogt (degV x y) (broadcast S256 (Scalar.ofBits .f32 0x00000000#32))) (rsqrt (degV x y))
    (broadcast S256 (Scalar.ofBits .f32 0x00000000#32))

/-- The mixing matrix. -/
def mixV : FVec Ideal S256x256 .f32 :=
  addf
    (mulf
      (mulf
        (mulf (adjV x y) (broadcastTo S256x256 (shapeCast S1x256 (normV x y) Gen.shapeCasts_S256_S1x256) Gen.broadcasts_S1x256_S256x256))
        (broadcastTo S256x256 (shapeCast S256x1 (normV x y) Gen.shapeCasts_S256_S256x1) Gen.broadcasts_S256x1_S256x256))
      (subf (broadcast S256x256 (Scalar.ofBits .f32 0x3F4CCCCD#32)) (mulf (broadcast S256x256 (Scalar.ofBits .f32 0x3DCCCCCD#32)) eyeV)))
    (mulf (broadcast S256x256 (Scalar.ofBits .f32 0x3DCCCCCD#32)) eyeV)

/-- One propagation round: the mixing matrix (narrowed) times a feature matrix (narrowed), into a zero accumulator. -/
def roundV (M : FVec Ideal S256x256 .f32) (H : FVec Ideal S256x128 .f32) : FVec Ideal S256x128 .f32 :=
  matmul dot_S256x256_S256x128_S256x128_1_0_0_1_n_n none (truncf .bf16 M Gen.bitsLt_bf16_f32) (truncf .bf16 H Gen.bitsLt_bf16_f32)
    (constant S256x128 .f32 0x00000000#32)

/-- The stored value is the stages composed. -/
theorem pay_eq :
    Gen.k0_pay1 (F := Ideal) x y z
      = shapeCast S1x256x128
          (roundV (mixV x y) (roundV (mixV x y) (shapeCast S256x128 z Gen.shapeCasts_S1x256x128_S256x128)))
          Gen.shapeCasts_S256x128_S1x256x128 := rfl

end Stages

/-! ## Each stage at an index -/

section Apply

variable (x y : Vec Ideal S1x256x256 .f32) (z : Vec Ideal S1x256x128 .f32)

/-- The halves and the features as plain matrices. -/
abbrev halfOf (x : Vec Ideal S1x256x256 .f32) : Fin 256 → Fin 256 → EReal := fun i j => x (ix3 (0 : Fin 1) i j)
abbrev featOf (z : Vec Ideal S1x256x128 .f32) : Fin 256 → Fin 128 → EReal := fun k d => z (ix3 (0 : Fin 1) k d)

theorem eyeV_apply (i j : Fin 256) : eyeV (ix2 i j) = eyeE i j := by
  unfold eyeV eyeE
  show FloatOps.sitofp (F := Ideal) .f32
    ((IntOp.cmpi .eq (iota .tc S256x256 32 [0] Gen.iota_S256x256_d0_w32 (ix2 i j)) (iota .tc S256x256 32 [1] Gen.iota_S256x256_d1_w32 (ix2 i j))).setWidth 32) = _
  rw [iota_single_apply, iota_single_apply]
  exact eye_signed i.val j.val i.isLt j.isLt

theorem adjV_apply (i j : Fin 256) : adjV x y (ix2 i j) = adj (halfOf x) (halfOf y) i j := by
  unfold adjV adj
  show (shapeCast S256x256 x _ (ix2 i j) + shapeCast S256x256 y _ (ix2 i j)) + eyeV (ix2 i j) = _
  rw [shapeCast_1ab_ab_apply, shapeCast_1ab_ab_apply, eyeV_apply]

theorem degV_apply (i : Fin 256) : degV x y (ix1 i) = rowSum (halfOf x) (halfOf y) i := by
  unfold degV rowSum
  refine (Ideal.multiReduction_add_single (adjV x y) 0x00000000#32 Gen.reduces_S256x256_S256 (.inl rfl) rfl (ix1 i)).trans ?_
  show ∑ k : Fin 256, adjV x y (Gen.reduces_S256x256_S256.lift (ix1 i) k) = _
  refine Finset.sum_congr rfl fun k _ => ?_
  have hl : Gen.reduces_S256x256_S256.lift (ix1 i) k = ix2 i k :=
    funext fun c => Fin.ext (by match c with | ⟨0, _⟩ => rfl | ⟨1, _⟩ => rfl)
  rw [hl]
  exact adjV_apply x y i k

theorem normV_apply (i : Fin 256) : normV x y (ix1 i) = normSel (rowSum (halfOf x) (halfOf y) i) := by
  unfold normV normSel
  show Scalar.select (Ideal.cmp .ogt (degV x y (ix1 i)) (Ideal.ofBits .f32 0x00000000#32)) (Ideal.rsqrt (degV x y (ix1 i))) (Ideal.ofBits .f32 0x00000000#32) = _
  rw [degV_apply]

theorem mixV_apply (i j : Fin 256) : mixV x y (ix2 i j) = mixSel (halfOf x) (halfOf y) i j := by
  unfold mixV mixSel
  show ((adjV x y (ix2 i j) * broadcastTo S256x256 (shapeCast S1x256 (normV x y) _) _ (ix2 i j))
        * broadcastTo S256x256 (shapeCast S256x1 (normV x y) _) _ (ix2 i j))
        * (Ideal.ofBits .f32 0x3F4CCCCD#32 - Ideal.ofBits .f32 0x3DCCCCCD#32 * eyeV (ix2 i j))
      + Ideal.ofBits .f32 0x3DCCCCCD#32 * eyeV (ix2 i j) = _
  rw [broadcastTo_1b_ab_apply, shapeCast_a_1a_apply, broadcastTo_a1_ab_apply, shapeCast_a_a1_apply,
    normV_apply, normV_apply, adjV_apply, eyeV_apply]

/-- The operand indices of the 256 × 256 by 256 × 128 product, coordinate by coordinate: at output `(r, d)` and
    contraction coordinate `q` the left operand is read at `(r, q)` and the right at `(q, d)`. -/
theorem lhs_0 (j : S256x128.Idx) (q : dot_S256x256_S256x128_S256x128_1_0_0_1_n_n.contr.Idx) :
    (dot_S256x256_S256x128_S256x128_1_0_0_1_n_n.lhsIdx j q 0).val = (j 0).val := by
  unfold DotDims.lhsIdx
  rw [dif_neg (show ¬(0 : Fin S256x256.rank) ∈ dot_S256x256_S256x128_S256x128_1_0_0_1_n_n.lhsBatch by decide),
    dif_pos (show (0 : Fin S256x256.rank) ∈ dot_S256x256_S256x128_S256x128_1_0_0_1_n_n.lhsNonContracting by decide)]
  rfl
theorem lhs_1 (j : S256x128.Idx) (q : dot_S256x256_S256x128_S256x128_1_0_0_1_n_n.contr.Idx) :
    (dot_S256x256_S256x128_S256x128_1_0_0_1_n_n.lhsIdx j q 1).val = (q ⟨0, by decide⟩).val :=
  dot_S256x256_S256x128_S256x128_1_0_0_1_n_n.lhsIdx_val_of_single rfl j q
theorem rhs_0 (j : S256x128.Idx) (q : dot_S256x256_S256x128_S256x128_1_0_0_1_n_n.contr.Idx) :
    (dot_S256x256_S256x128_S256x128_1_0_0_1_n_n.rhsIdx j q 0).val = (q ⟨0, by decide⟩).val :=
  dot_S256x256_S256x128_S256x128_1_0_0_1_n_n.rhsIdx_val_of_single rfl j q
theorem rhs_1 (j : S256x128.Idx) (q : dot_S256x256_S256x128_S256x128_1_0_0_1_n_n.contr.Idx) :
    (dot_S256x256_S256x128_S256x128_1_0_0_1_n_n.rhsIdx j q 1).val = (j 1).val := by
  unfold DotDims.rhsIdx
  rw [dif_neg (show ¬(1 : Fin S256x128.rank) ∈ dot_S256x256_S256x128_S256x128_1_0_0_1_n_n.rhsBatch by decide),
    dif_pos (show (1 : Fin S256x128.rank) ∈ dot_S256x256_S256x128_S256x128_1_0_0_1_n_n.rhsNonContracting by decide)]
  rfl

/-- A 256 × 256 by 256 × 128 product into a zero accumulator, at `(r, d)`: the sum over the contracted coordinate. -/
theorem roundV_apply (M : FVec Ideal S256x256 .f32) (H : FVec Ideal S256x128 .f32) (r : Fin 256) (d : Fin 128) :
    roundV M H (ix2 r d) = ∑ k : Fin 256, M (ix2 r k) * H (ix2 k d) := by
  unfold roundV
  refine (Ideal.matmul_constant_zero_apply dot_S256x256_S256x128_S256x128_1_0_0_1_n_n none
    (truncf .bf16 M Gen.bitsLt_bf16_f32) (truncf .bf16 H Gen.bitsLt_bf16_f32) (ix2 r d)).trans ?_
  rw [← Equiv.sum_comp (contrEquiv1 dot_S256x256_S256x128_S256x128_1_0_0_1_n_n 256 rfl rfl).symm]
  refine Finset.sum_congr rfl fun k _ => ?_
  have hk := contrEquiv1_symm_val dot_S256x256_S256x128_S256x128_1_0_0_1_n_n 256 rfl rfl k
  have el : dot_S256x256_S256x128_S256x128_1_0_0_1_n_n.lhsIdx (ix2 r d)
      ((contrEquiv1 dot_S256x256_S256x128_S256x128_1_0_0_1_n_n 256 rfl rfl).symm k) = ix2 r k :=
    funext fun a => Fin.ext (by
      match a with
      | ⟨0, _⟩ => exact lhs_0 _ _
      | ⟨1, _⟩ => exact (lhs_1 _ _).trans hk)
  have er : dot_S256x256_S256x128_S256x128_1_0_0_1_n_n.rhsIdx (ix2 r d)
      ((contrEquiv1 dot_S256x256_S256x128_S256x128_1_0_0_1_n_n 256 rfl rfl).symm k) = ix2 k d :=
    funext fun a => Fin.ext (by
      match a with
      | ⟨0, _⟩ => exact (rhs_0 _ _).trans hk
      | ⟨1, _⟩ => exact rhs_1 _ _)
  rw [el, er]
  rfl

/-- Entry `(·, r, d)` of the stored slab: two propagation rounds of the sample at `(r, d)`. -/
theorem pay_apply (u : Fin 1) (r : Fin 256) (d : Fin 128) :
    Gen.k0_pay1 (F := Ideal) x y z (ix3 u r d) = twoRounds (mixSel (halfOf x) (halfOf y)) (featOf z) r d := by
  rw [pay_eq, shapeCast_ab_1ab_apply, roundV_apply]
  unfold twoRounds
  refine Finset.sum_congr rfl fun j _ => ?_
  rw [mixV_apply, roundV_apply]
  refine congrArg (_ * ·) (Finset.sum_congr rfl fun k _ => ?_)
  rw [mixV_apply, shapeCast_1ab_ab_apply]

end Apply

end Cert.Proof.Payload

end
-- ==== Proof.TripPieces.lean ====
/-
  What the kernel's body leaves in its output block, as ONE function of the two input blocks.

  At a grid point the body holds a block of 16 samples: `a : [16, 256, 512]` (each sample's two adjacency halves side by
  side along the last axis) and `f : [16, 256, 128]` (its features). A counted loop of 16 trips handles one sample per
  trip: trip `k` loads rows `k` of `a` (columns 0–255 and 256–511) and of `f`, and stores one [1, 256, 128] slab at
  row `k` of the output block. So the list of stores the loop leaves is, trip by trip, a piece at row `k` whose
  payload is the propagation of sample `k`; every piece is the restriction of one function of the block index
  `(s, r, d)` — sample `s`'s two propagation rounds at `(r, d)` (`blockFn`) — and the pieces cover the block, so the
  block read back IS that function.
-/
import proofs.«117473_j51367808860292_2_alg».proof.Proof.Gen.KernelIdeal.Frame
import proofs.«117473_j51367808860292_2_alg».proof.Proof.Payload

set_option maxRecDepth 16384

noncomputable section

namespace Cert.Proof.TripPieces

open Cert.KernelIdeal Cert.KernelIdeal.Gen Idealize.ShloMosaic Idealize.ShloMosaic.TcCoe Idealize.ShloMosaic.ValueIdx Idealize.SL.Sem
open Cert.Proof.Propagate Cert.Proof.Payload

/-! ## One sample of a block -/

/-- The first adjacency half of sample `s` of a block: columns 0–255. -/
abbrev loHalf {n : ℕ} (a : (⟨3, ![n, 256, 512]⟩ : Shape).Idx → EReal) (s : Fin n) : Fin 256 → Fin 256 → EReal :=
  fun i j => a (ix3 s i ⟨j.val, by have := j.isLt; omega⟩)

/-- The second half: columns 256–511. -/
abbrev hiHalf {n : ℕ} (a : (⟨3, ![n, 256, 512]⟩ : Shape).Idx → EReal) (s : Fin n) : Fin 256 → Fin 256 → EReal :=
  fun i j => a (ix3 s i ⟨256 + j.val, by have := j.isLt; omega⟩)

/-- The features of sample `s`. -/
abbrev featsAt {n : ℕ} (f : (⟨3, ![n, 256, 128]⟩ : Shape).Idx → EReal) (s : Fin n) : Fin 256 → Fin 128 → EReal :=
  fun k d => f (ix3 s k d)

/-- Sample `s` propagated, at `(r, d)`. -/
def sampleOut {n : ℕ} (a : (⟨3, ![n, 256, 512]⟩ : Shape).Idx → EReal) (f : (⟨3, ![n, 256, 128]⟩ : Shape).Idx → EReal)
    (s : Fin n) (r : Fin 256) (d : Fin 128) : EReal :=
  twoRounds (mixSel (loHalf a s) (hiHalf a s)) (featsAt f s) r d

/-- The whole block (or array) of samples propagated, as a function of the index `(s, r, d)`. -/
def blockFn {n : ℕ} (a : (⟨3, ![n, 256, 512]⟩ : Shape).Idx → EReal) (f : (⟨3, ![n, 256, 128]⟩ : Shape).Idx → EReal) :
    (⟨3, ![n, 256, 128]⟩ : Shape).Idx → EReal :=
  fun y => sampleOut a f (y 0) (y 1) (y 2)

theorem blockFn_ix3 {n : ℕ} (a : (⟨3, ![n, 256, 512]⟩ : Shape).Idx → EReal) (f : (⟨3, ![n, 256, 128]⟩ : Shape).Idx → EReal)
    (s : Fin n) (r : Fin 256) (d : Fin 128) : blockFn a f (ix3 s r d) = sampleOut a f s r d := rfl

/-! ## One trip's piece -/

section Trip

variable (c : Dev nD) (i : grid0.Coords) (arg1 : Memref sig .tc .vmem S16x256x512 .f32) (harg1 : arg1.IsWhole)
  (arg2 : Memref sig .tc .vmem S16x256x128 .f32) (harg2 : arg2.IsWhole) (arg3 : Memref sig .tc .vmem S16x256x128 .f32) (harg3 : arg3.IsWhole)
  (a : Vec Ideal S16x256x512 .f32) (f : Vec Ideal S16x256x128 .f32)

theorem trip_lt (k : Fin k0_t1_loop.trips) : k.val < 16 := Nat.lt_of_lt_of_le k.isLt k0_t1_abs.2.1

/-- The slab trip `k` stores, at a local index, is `blockFn` at that index placed in row `k`: the three loads are
    rows `k` of the block's halves and features. -/
theorem piece_apply (k : Fin k0_t1_loop.trips) (x : S1x256x128.Idx) :
    k0_pay1 (F := Ideal)
        (View.readAt (Elt Ideal) arg1.view (Rect.unit (s := S16x256x512) (k0_off1 k) S1x256x256.size (k0_off1_inb k)).toLoadRect (harg1.unread a))
        (View.readAt (Elt Ideal) arg1.view (Rect.unit (s := S16x256x512) (k0_off2 k) S1x256x256.size (k0_off2_inb k)).toLoadRect (harg1.unread a))
        (View.readAt (Elt Ideal) arg2.view (Rect.unit (s := S16x256x128) (k0_off3 k) S1x256x128.size (k0_off3_inb k)).toLoadRect (harg2.unread f)) x
      = blockFn a f ((Rect.unit (s := S16x256x128) (k0_off3 k) S1x256x128.size (k0_off3_inb k)).emb x) := by
  have hk := trip_lt k
  obtain ⟨u, r, d, rfl⟩ : ∃ (u : Fin 1) (r : Fin 256) (d : Fin 128), x = ix3 u r d := ⟨x 0, x 1, x 2, eq_ix3 x⟩
  refine (pay_apply _ _ _ u r d).trans ?_
  have hu : u.val = 0 := by omega
  have hemb : (Rect.unit (s := S16x256x128) (k0_off3 k) S1x256x128.size (k0_off3_inb k)).emb (ix3 u r d)
      = ix3 (⟨k.val, hk⟩ : Fin 16) r d := funext fun ax => Fin.ext (by
    match ax with
    | ⟨0, _⟩ => show k0_off3 k 0 + 1 * u.val = k.val; rw [k0_off3_eq, hu]; rfl
    | ⟨1, _⟩ => show k0_off3 k 1 + 1 * r.val = r.val; rw [k0_off3_eq]; show 0 + 1 * r.val = r.val; omega
    | ⟨2, _⟩ => show k0_off3 k 2 + 1 * d.val = d.val; rw [k0_off3_eq]; show 0 + 1 * d.val = d.val; omega)
  rw [hemb, blockFn_ix3]
  unfold sampleOut
  have e1 : halfOf (View.readAt (Elt Ideal) arg1.view (Rect.unit (s := S16x256x512) (k0_off1 k) S1x256x256.size (k0_off1_inb k)).toLoadRect (harg1.unread a))
      = loHalf a (⟨k.val, hk⟩ : Fin 16) := funext fun p => funext fun q =>
    (congrFun (harg1.read_unread a) ((Rect.unit (s := S16x256x512) (k0_off1 k) S1x256x256.size (k0_off1_inb k)).toLoadRect.idx (ix3 (0 : Fin 1) p q))).trans
      (congrArg a (funext fun ax => Fin.ext (by
        match ax with
        | ⟨0, _⟩ => show k0_off1 k 0 + 1 * 0 = k.val; rw [k0_off1_eq]; rfl
        | ⟨1, _⟩ => show k0_off1 k 1 + 1 * p.val = p.val; rw [k0_off1_eq]; show 0 + 1 * p.val = p.val; omega
        | ⟨2, _⟩ => show k0_off1 k 2 + 1 * q.val = q.val; rw [k0_off1_eq]; show 0 + 1 * q.val = q.val; omega)))
  have e2 : halfOf (View.readAt (Elt Ideal) arg1.view (Rect.unit (s := S16x256x512) (k0_off2 k) S1x256x256.size (k0_off2_inb k)).toLoadRect (harg1.unread a))
      = hiHalf a (⟨k.val, hk⟩ : Fin 16) := funext fun p => funext fun q =>
    (congrFun (harg1.read_unread a) ((Rect.unit (s := S16x256x512) (k0_off2 k) S1x256x256.size (k0_off2_inb k)).toLoadRect.idx (ix3 (0 : Fin 1) p q))).trans
      (congrArg a (funext fun ax => Fin.ext (by
        match ax with
        | ⟨0, _⟩ => show k0_off2 k 0 + 1 * 0 = k.val; rw [k0_off2_eq]; rfl
        | ⟨1, _⟩ => show k0_off2 k 1 + 1 * p.val = p.val; rw [k0_off2_eq]; show 0 + 1 * p.val = p.val; omega
        | ⟨2, _⟩ => show k0_off2 k 2 + 1 * q.val = 256 + q.val; rw [k0_off2_eq]; show 256 + 1 * q.val = 256 + q.val; omega)))
  have e3 : featOf (View.readAt (Elt Ideal) arg2.view (Rect.unit (s := S16x256x128) (k0_off3 k) S1x256x128.size (k0_off3_inb k)).toLoadRect (harg2.unread f))
      = featsAt f (⟨k.val, hk⟩ : Fin 16) := funext fun p => funext fun q =>
    (congrFun (harg2.read_unread f) ((Rect.unit (s := S16x256x128) (k0_off3 k) S1x256x128.size (k0_off3_inb k)).toLoadRect.idx (ix3 (0 : Fin 1) p q))).trans
      (congrArg f (funext fun ax => Fin.ext (by
        match ax with
        | ⟨0, _⟩ => show k0_off3 k 0 + 1 * 0 = k.val; rw [k0_off3_eq]; rfl
        | ⟨1, _⟩ => show k0_off3 k 1 + 1 * p.val = p.val; rw [k0_off3_eq]; show 0 + 1 * p.val = p.val; omega
        | ⟨2, _⟩ => show k0_off3 k 2 + 1 * q.val = q.val; rw [k0_off3_eq]; show 0 + 1 * q.val = q.val; omega)))
  rw [e1, e2, e3]

/-- Trip `k`'s one piece is the restriction of `blockFn` to row `k` of the block. -/
theorem trip_piece (k : Fin k0_t1_loop.trips) :
    ∀ p ∈ tripL_k0_t1 (F := Ideal) Variants.none c none i arg1 harg1 arg2 harg2 arg3 harg3 (harg1.unread a) (harg2.unread f) k,
      ∀ x : p.1.shape.Idx, p.2 x = blockFn a f (p.1.emb x) := by
  unfold tripL_k0_t1 trip_k0_t1
  dsimp only
  intro p hp
  rw [List.mem_singleton] at hp
  subst hp
  intro x
  exact piece_apply arg1 harg1 arg2 harg2 a f k x

/-- So is every piece of the trips before `n`. -/
theorem pieces_before (n : ℕ) :
    ∀ p ∈ pb_k0_t1 (F := Ideal) Variants.none c none i arg1 harg1 arg2 harg2 arg3 harg3 (harg1.unread a) (harg2.unread f) n,
      ∀ x : p.1.shape.Idx, p.2 x = blockFn a f (p.1.emb x) := by
  induction n with
  | zero => intro p hp; rw [pb_k0_t1.eq_1] at hp; exact absurd hp List.not_mem_nil
  | succ n ih =>
    rw [pb_k0_t1.eq_2]
    unfold pb_k0_t1Step
    split
    · intro p hp
      rcases List.mem_append.mp hp with h | h
      · exact trip_piece c i arg1 harg1 arg2 harg2 arg3 harg3 a f _ p h
      · exact ih p h
    · exact ih

/-- THE BLOCK THE BODY LEAVES: the 16 samples of the input blocks, each propagated. -/
theorem out_eq : out0_A_2 (F := Ideal) c i arg1 harg1 arg2 harg2 arg3 harg3 a f = blockFn a f := by
  funext y
  unfold out0_A_2
  refine View.read_writes_apply_of_pieces VO0_2 _ (blockFn a f) _ ?_ y (cover0_A_2 c i arg1 harg1 arg2 harg2 arg3 harg3 a f y)
  have hL : (kernelRun0_A (F := Ideal) c i arg1 harg1 arg2 harg2 arg3 harg3 a f).1
      = pb_k0_t1 (F := Ideal) Variants.none c none i arg1 harg1 arg2 harg2 arg3 harg3 (harg1.unread a) (harg2.unread f) k0_t1_loop.trips := by
    unfold kernelRun0_A
    rfl
  rw [hL]
  exact pieces_before c i arg1 harg1 arg2 harg2 arg3 harg3 a f _

end Trip

end Cert.Proof.TripPieces

end
-- ==== Proof.ArrayValue.lean ====
/-
  From blocks to the whole result array.

  The grid has 32 points; point `t` stages samples `16 t … 16 t + 15` of the adjacency array and of the feature
  array, and writes back samples `16 t … 16 t + 15` of the result. What the body leaves in the output block is the 16
  staged samples propagated (`TripPieces.out_eq`), and a staged sample `s` of point `t` is sample `16 t + s` of the
  array, so what point `t` writes back is block `t` of ONE function of the two arrays: every sample propagated
  (`blockFn` at 512 samples). Sample `b` lies in the block of point `b / 16`, so the blocks cover the result, which
  therefore ends as that function.
-/
import proofs.«117473_j51367808860292_2_alg».proof.Proof.Gen.KernelIdeal.Value
import proofs.«117473_j51367808860292_2_alg».proof.Proof.TripPieces

set_option maxRecDepth 16384

noncomputable section

namespace Cert.Proof.ArrayValue

open Cert.KernelIdeal Cert.KernelIdeal.Gen Idealize.ShloMosaic Idealize.ShloMosaic.TcCoe Idealize.ShloMosaic.ValueIdx Idealize.SL.Sem
open Idealize.ShloMosaic.Pipeline (Dat)
open Cert.Proof.TripPieces

variable (m : (ℓ : Loc nD τ sig) → Buf (Elt Ideal) ℓ) (ρ : Dev nD → PrngReg)

/-- The adjacency array and the gathered feature array as the region finds them. -/
abbrev adjArr (c : Dev nD) : S512x256x512.Idx → EReal := V m c main_arg1
abbrev featArr (c : Dev nD) : S512x256x128.Idx → EReal := V m c main_v6

/-- The printed index maps, decided over the 32 points: each window's block index is `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem point_lt (t : Fin cfg0.N) : t.val < 32 := Nat.lt_of_lt_of_eq t.isLt N_0

/-- Sample `s` of point `t`'s adjacency block is sample `16 t + s` of the array. -/
theorem adjBlock_apply (c : Dev nD) (t : Fin cfg0.N) (s : Fin 16) (p : Fin 256) (q : Fin 512) :
    iblk m c 0 t (ix3 s p q) = adjArr m c (ix3 (⟨16 * t.val + s.val, by have := point_lt t; omega⟩ : Fin 512) p q) := by
  obtain ⟨e0, e1, e2, -⟩ := idx_facts t
  show V m c main_arg1 (((cfg0.win 0).blk t).view.emb (ix3 s p q)) = V m c main_arg1 _
  refine congrArg (V m c main_arg1) (funext fun ax => Fin.ext ?_)
  match ax with
  | ⟨0, _⟩ => show win0_0.index t (0 : Fin 3) * 16 + 1 * s.val = 16 * t.val + s.val; omega
  | ⟨1, _⟩ => show win0_0.index t (1 : Fin 3) * 256 + 1 * p.val = p.val; omega
  | ⟨2, _⟩ => show win0_0.index t (2 : Fin 3) * 512 + 1 * q.val = q.val; omega

/-- The same of the feature block. -/
theorem featBlock_apply (c : Dev nD) (t : Fin cfg0.N) (s : Fin 16) (p : Fin 256) (q : Fin 128) :
    iblk m c 1 t (ix3 s p q) = featArr m c (ix3 (⟨16 * t.val + s.val, by have := point_lt t; omega⟩ : Fin 512) p q) := by
  obtain ⟨-, -, -, e0, e1, e2, -⟩ := idx_facts t
  show V m c main_v6 (((cfg0.win 1).blk t).view.emb (ix3 s p q)) = V m c main_v6 _
  refine congrArg (V m c main_v6) (funext fun ax => Fin.ext ?_)
  match ax with
  | ⟨0, _⟩ => show win0_1.index t (0 : Fin 3) * 16 + 1 * s.val = 16 * t.val + s.val; omega
  | ⟨1, _⟩ => show win0_1.index t (1 : Fin 3) * 256 + 1 * p.val = p.val; omega
  | ⟨2, _⟩ => show win0_1.index t (2 : Fin 3) * 128 + 1 * q.val = q.val; omega

/-- A sample's propagation depends only on that sample's rows: two arrays whose samples `s` and `b` agree give the same. -/
theorem sampleOut_congr {n n' : ℕ} (a : (⟨3, ![n, 256, 512]⟩ : Shape).Idx → EReal) (f : (⟨3, ![n, 256, 128]⟩ : Shape).Idx → EReal)
    (A : (⟨3, ![n', 256, 512]⟩ : Shape).Idx → EReal) (H : (⟨3, ![n', 256, 128]⟩ : Shape).Idx → EReal) (s : Fin n) (b : Fin n')
    (ha : ∀ (p : Fin 256) (q : Fin 512), a (ix3 s p q) = A (ix3 b p q))
    (hf : ∀ (p : Fin 256) (q : Fin 128), f (ix3 s p q) = H (ix3 b p q)) (r : Fin 256) (d : Fin 128) :
    sampleOut a f s r d = sampleOut A H b r d := by
  unfold sampleOut
  have e1 : loHalf a s = loHalf A b := funext fun p => funext fun q => ha p _
  have e2 : hiHalf a s = hiHalf A b := funext fun p => funext fun q => ha p _
  have e3 : featsAt f s = featsAt H b := funext fun p => funext fun q => hf p q
  rw [e1, e2, e3]

/-- WHAT POINT `t` WRITES BACK is block `t` of every sample of the two arrays propagated. -/
theorem flushed_eq (c : Dev nD) (t : Fin cfg0.N) :
    (dats m 0 c).flushed 2 t = ((cfg0.win 2).blk t).view.read (Elt Ideal) (blockFn (adjArr m c) (featArr m c)) := by
  rw [Value.flushed2_A, out_eq]
  obtain ⟨-, -, -, -, -, -, e0, e1, e2⟩ := idx_facts t
  have ht := point_lt t
  funext j
  show blockFn (iblk m c 0 t) (iblk m c 1 t) j = blockFn (adjArr m c) (featArr m c) (((cfg0.win 2).blk t).view.emb j)
  obtain ⟨s, r, d, rfl⟩ : ∃ (s : Fin 16) (r : Fin 256) (d : Fin 128), j = ix3 s r d := ⟨j 0, j 1, j 2, eq_ix3 j⟩
  have hemb : ((cfg0.win 2).blk t).view.emb (ix3 s r d) = ix3 (⟨16 * t.val + s.val, by omega⟩ : Fin 512) r d :=
    funext fun ax => Fin.ext (by
      match ax with
      | ⟨0, _⟩ => show win0_2.index t (0 : Fin 3) * 16 + 1 * s.val = 16 * t.val + s.val; omega
      | ⟨1, _⟩ => show win0_2.index t (1 : Fin 3) * 256 + 1 * r.val = r.val; omega
      | ⟨2, _⟩ => show win0_2.index t (2 : Fin 3) * 128 + 1 * d.val = d.val; omega)
  rw [hemb, blockFn_ix3, blockFn_ix3]
  exact sampleOut_congr (iblk m c 0 t) (iblk m c 1 t) (adjArr m c) (featArr m c) s _
    (fun p q => adjBlock_apply m c t s p q) (fun p q => featBlock_apply m c t s p q) r d

/-- An index of the result is in point `t`'s block iff each coordinate is in the block's range on its axis. -/
theorem mem_blk (t : Fin cfg0.N) (i : S512x256x128.Idx) :
    i ∈ ((cfg0.win 2).blk t).view.set ↔ ∀ a : Fin 3, win0_2.index t a * S16x256x128.size a ≤ (i a).val
      ∧ (i a).val < win0_2.index t a * S16x256x128.size a + S16x256x128.size a := by
  show i ∈ ((View.whole main_v7).slice (win0_2.rect t)).set ↔ _
  rw [View.set_slice_whole, Rect.mem_set_unit]
  exact Iff.rfl

/-- Sample `b` is written back by point `b / 16`. -/
theorem covered (i : S512x256x128.Idx) : ∃ t : Fin cfg0.N, (cfg0.win 2).flush t = true ∧ i ∈ ((cfg0.win 2).blk t).view.set := by
  have h0 : (i 0).val < 512 := (i 0).isLt
  have h1 : (i 1).val < 256 := (i 1).isLt
  have h2 : (i 2).val < 128 := (i 2).isLt
  refine ⟨⟨(i 0).val / 16, Nat.lt_of_lt_of_eq (by omega : (i 0).val / 16 < 32) N_0.symm⟩, flush0_2 _, ?_⟩
  obtain ⟨-, -, -, -, -, -, e0, e1, e2⟩ := idx_facts ⟨(i 0).val / 16, Nat.lt_of_lt_of_eq (by omega : (i 0).val / 16 < 32) N_0.symm⟩
  rw [mem_blk]
  intro ax
  match ax with
  | ⟨0, _⟩ =>
    show win0_2.index _ (0 : Fin 3) * 16 ≤ (i 0).val ∧ (i 0).val < win0_2.index _ (0 : Fin 3) * 16 + 16
    rw [e0]; show (i 0).val / 16 * 16 ≤ (i 0).val ∧ (i 0).val < (i 0).val / 16 * 16 + 16; omega
  | ⟨1, _⟩ =>
    show win0_2.index _ (1 : Fin 3) * 256 ≤ (i 1).val ∧ (i 1).val < win0_2.index _ (1 : Fin 3) * 256 + 256
    rw [e1]; omega
  | ⟨2, _⟩ =>
    show win0_2.index _ (2 : Fin 3) * 128 ≤ (i 2).val ∧ (i 2).val < win0_2.index _ (2 : Fin 3) * 128 + 128
    rw [e2]; omega

/-- THE RESULT ARRAY after the run: every sample of the two arrays propagated. -/
theorem final (c : Dev nD) : (dats m 0 c).arrAt 2 cfg0.N = blockFn (adjArr m c) (featArr m c) :=
  (dats m 0 c).arrAt_eq_of_cover 2 (blockFn (adjArr m c) (featArr m c)) (fun t _ => flushed_eq m c t) (covered)

/-- The frame run re-posted: the result at that function of the arrays the region finds, the arguments unchanged. -/
theorem run : θ_run defs (onTc (τ := τ) (main (F := Ideal))) ⟨m, fun _ => 0, ρ⟩ fun r => ∀ c : Dev nD,
      r.2.mem ((c : Thread nD τ).loc main_v7) = blockFn (adjArr m c) (featArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.Proof.ArrayValue

end
-- ==== Proof.ReferenceValue.lean ====
/-
  The reference's result, index by index.

  The reference works on whole arrays: it adds the two halves of every sample's adjacency and the identity, sums rows,
  raises the sums to the power -1/2 (replacing an infinite value by zero), scales rows then columns, mixes
  `α · norm + (β · (1 - norm)) · I`, and applies the batched matrix product twice to the gathered features `H`.
  Read at `(b, r, d)` through the generated stage-by-stage lemmas, its result is
  `∑ j, M_b r j · ∑ k, M_b j k · H (b, k, d)` with `M_b` the mixing matrix of sample `b` in the row-factor-first
  arrangement (`Propagate.mixPow`). On a finite adjacency array that is the column-factor-first, fused arrangement
  (`Propagate.mixPow_eq_mixSel`), so the reference's result is `blockFn` of the adjacency array and `H`.
-/
import proofs.«117473_j51367808860292_2_alg».proof.Proof.Gen.ReferenceIdeal.Read
import proofs.«117473_j51367808860292_2_alg».proof.Proof.Propagate
import Idealize.ShloMosaic.Lib.ValueIdx

noncomputable section

namespace Cert.Proof.ReferenceValue

open Cert.ReferenceIdeal Cert.ReferenceIdeal.Read Idealize.ShloMosaic Idealize.ShloMosaic.ValueIdx
open Cert.Proof.RealLaws Cert.Proof.Propagate

variable (x1 : S512x256x512.Idx → EReal)

/-- The two adjacency halves of sample `b`. -/
abbrev lo (b : Fin 512) : Fin 256 → Fin 256 → EReal := fun i j => x1 (ix3 b i ⟨j.val, by have := j.isLt; omega⟩)
abbrev hi (b : Fin 512) : Fin 256 → Fin 256 → EReal := fun i j => x1 (ix3 b i ⟨256 + j.val, by have := j.isLt; omega⟩)

/-- The identity matrix the reference builds. -/
theorem eye_apply (p q : Fin 256) : val_main_v15 (F := Ideal) (ix2 p q) = eyeE p q := by
  rw [val_main_v15_apply, val_main_v14_apply, val_main_v13_apply, val_main_v10_apply, val_main_v11_apply, val_main_v12_apply,
    val_main_c_1_apply]
  exact eye_unsigned p.val q.val p.isLt q.isLt

/-- The adjacency with self loops. -/
theorem adj_apply (b : Fin 512) (p q : Fin 256) : val_main_v18 (F := Ideal) x1 (ix3 b p q) = adj (lo x1 b) (hi x1 b) p q := by
  rw [val_main_v18_apply, val_main_v9_apply, val_main_v7_apply, val_main_v8_apply, val_main_v17_apply, val_main_v16_apply]
  have e7 : idx_main_v7 (ix3 b p q) = ix3 b p ⟨q.val, by have := q.isLt; omega⟩ :=
    funext fun a => Fin.ext (by match a with | ⟨0, _⟩ => rfl | ⟨1, _⟩ => rfl | ⟨2, _⟩ => rfl)
  have e8 : idx_main_v8 (ix3 b p q) = ix3 b p ⟨256 + q.val, by have := q.isLt; omega⟩ :=
    funext fun a => Fin.ext (by match a with | ⟨0, _⟩ => rfl | ⟨1, _⟩ => rfl | ⟨2, _⟩ => rfl)
  have e16 : idx_main_v16 (idx_main_v17 (ix3 b p q)) = ix2 p q :=
    funext fun a => Fin.ext (by match a with | ⟨0, _⟩ => rfl | ⟨1, _⟩ => rfl)
  rw [e7, e8, e16, eye_apply]
  rfl

/-- The degrees. -/
theorem deg_apply (b : Fin 512) (p : Fin 256) : val_main_v19 (F := Ideal) x1 (ix2 b p) = rowSum (lo x1 b) (hi x1 b) p := by
  rw [val_main_v19_apply, val_main_cst_apply]
  show Ideal.ofBits .f32 0x00000000#32 + _ = _
  rw [Ideal.ofBits_zero_f32, zero_add]
  unfold rowSum
  refine Finset.sum_congr rfl fun k _ => ?_
  have e19 : idx_main_v19 (ix2 b p) k = ix3 b p k :=
    funext fun a => Fin.ext (by match a with | ⟨0, _⟩ => rfl | ⟨1, _⟩ => rfl | ⟨2, _⟩ => rfl)
  rw [e19]
  exact adj_apply x1 b p k

/-- The normalizer: the degree to the power -1/2, an infinite value replaced by zero. -/
theorem norm_apply (b : Fin 512) (p : Fin 256) : val_main_v23 (F := Ideal) x1 (ix2 b p) = normPow (rowSum (lo x1 b) (hi x1 b) p) := by
  rw [val_main_v23_apply, val_main_v22_apply, val_main_call0_v0_apply, val_main_call0_v1_apply, val_main_call0_cst_apply,
    val_main_call1_v1_apply, val_main_call1_v0_apply, val_main_cst_3_apply, val_main_v21_apply, val_main_v20_apply,
    val_main_cst_2_apply, deg_apply]
  rfl

/-- The mixing matrix, row factor first. -/
theorem mix_apply (b : Fin 512) (p q : Fin 256) : val_main_v39 (F := Ideal) x1 (ix3 b p q) = mixPow (lo x1 b) (hi x1 b) p q := by
  rw [val_main_v39_apply, val_main_v31_apply, val_main_v38_apply, val_main_v35_apply, val_main_v33_apply, val_main_v29_apply,
    val_main_v26_apply, val_main_v30_apply, val_main_cst_4_apply, val_main_v34_apply, val_main_cst_6_apply, val_main_v32_apply,
    val_main_cst_5_apply, val_main_v25_apply, val_main_v24_apply, val_main_v28_apply, val_main_v27_apply,
    val_main_v37_apply, val_main_v36_apply]
  have e24 : idx_main_v24 (idx_main_v25 (ix3 b p q)) = ix2 b p :=
    funext fun a => Fin.ext (by match a with | ⟨0, _⟩ => rfl | ⟨1, _⟩ => rfl)
  have e27 : idx_main_v27 (idx_main_v28 (ix3 b p q)) = ix2 b q :=
    funext fun a => Fin.ext (by match a with | ⟨0, _⟩ => rfl | ⟨1, _⟩ => rfl)
  have e36 : idx_main_v36 (idx_main_v37 (ix3 b p q)) = ix2 p q :=
    funext fun a => Fin.ext (by match a with | ⟨0, _⟩ => rfl | ⟨1, _⟩ => rfl)
  rw [e24, e27, e36, norm_apply, norm_apply, adj_apply, eye_apply]
  rfl

/-- On a finite adjacency array the mixing matrix is also the column-factor-first, fused one. -/
theorem mix_sel (hfin : ∀ i, ∃ r : ℝ, x1 i = (r : EReal)) (b : Fin 512) (p q : Fin 256) :
    val_main_v39 (F := Ideal) x1 (ix3 b p q) = mixSel (lo x1 b) (hi x1 b) p q := by
  rw [mix_apply]
  exact mixPow_eq_mixSel _ _ (fun _ _ => hfin _) (fun _ _ => hfin _) p q

/-- THE REFERENCE'S RESULT at `(b, r, d)`: sample `b`'s two propagation rounds over the gathered features. -/
theorem result_apply (x0 : S512x256.Idx → BitVec 32) (x2 : S50000x128.Idx → EReal)
    (hfin : ∀ i, ∃ r : ℝ, x1 i = (r : EReal)) (b : Fin 512) (r : Fin 256) (d : Fin 128) :
    val_main_v41 (F := Ideal) x0 x1 x2 (ix3 b r d)
      = twoRounds (mixSel (lo x1 b) (hi x1 b)) (fun k e => val_main_v6 (F := Ideal) x0 x2 (ix3 b k e)) r d := by
  rw [val_main_v41_apply]
  unfold twoRounds
  refine Finset.sum_congr rfl fun j _ => ?_
  have el : lidx_main_v41 (ix3 b r d) j = ix3 b r j :=
    funext fun a => Fin.ext (by match a with | ⟨0, _⟩ => rfl | ⟨1, _⟩ => rfl | ⟨2, _⟩ => rfl)
  have er : ridx_main_v41 (ix3 b r d) j = ix3 b j d :=
    funext fun a => Fin.ext (by match a with | ⟨0, _⟩ => rfl | ⟨1, _⟩ => rfl | ⟨2, _⟩ => rfl)
  rw [el, er, mix_sel x1 hfin, val_main_v40_apply]
  refine congrArg (_ * ·) (Finset.sum_congr rfl fun k _ => ?_)
  have el' : lidx_main_v40 (ix3 b j d) k = ix3 b j k :=
    funext fun a => Fin.ext (by match a with | ⟨0, _⟩ => rfl | ⟨1, _⟩ => rfl | ⟨2, _⟩ => rfl)
  have er' : ridx_main_v40 (ix3 b j d) k = ix3 b k d :=
    funext fun a => Fin.ext (by match a with | ⟨0, _⟩ => rfl | ⟨1, _⟩ => rfl | ⟨2, _⟩ => rfl)
  rw [el', er', mix_sel x1 hfin]

end Cert.Proof.ReferenceValue

end
-- ==== Proof.FiniteInputs.lean ====
/-
  What the precondition gives: every entry of the adjacency array is a real number.

  The precondition says that "`|A| < +∞` everywhere, and `|W| < +∞` everywhere" evaluates to true: a conjunction of two
  reductions by `and` over all indices. The first conjunct gives `|A i| < +∞` at every index `i`, and an extended real
  whose magnitude is below `+∞` is neither `+∞` nor `-∞`.
-/
import proofs.«117473_j51367808860292_2_alg».proof.Pre_finite_inputs
import proofs.«117473_j51367808860292_2_alg».proof.Proof.Gen.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace Cert.Proof.FiniteInputs

open Cert.Pre_finite_inputs Idealize.ShloMosaic

instance : Subsingleton S_.Idx := ⟨fun _ _ => funext fun d => d.elim0⟩

/-- An extended real whose magnitude compares below the float word of `+∞` is a real. -/
theorem real_of_abs_lt (x : EReal)
    (h : FloatOps.cmpf (F := Ideal) .olt (FloatOps.hostAbsf x) (Ideal.ofBits .f32 0x7F800000#32) = 1#1) : ∃ r : ℝ, x = (r : EReal) := by
  have htop : Ideal.ofBits .f32 0x7F800000#32 = ⊤ := by simp [Ideal.ofBits, Ideal.ieee]
  have hc : BitVec.ofBool (decide (max x (-x) < ⊤)) = 1#1 := by
    have : Ideal.cmp .olt (max x (-x)) ⊤ = 1#1 := by rw [← htop]; exact h
    exact this
  have h' : max x (-x) < ⊤ := by
    by_contra hn
    rw [decide_eq_false hn] at hc
    exact absurd hc (by decide)
  induction x using EReal.rec with
  | bot => simp at h'
  | top => simp at h'
  | coe r => exact ⟨r, rfl⟩

/-- Under the precondition every adjacency entry is a real. -/
theorem adj_real (a0 : IVec S512x256 32) (a1 : FVec Ideal S512x256x512 .f32) (a2 : FVec Ideal S50000x128 .f32)
    (h : fn (F := Ideal) a0 a1 a2 = fun _ => 1#1) (i : S512x256x512.Idx) : ∃ r : ℝ, a1 i = (r : EReal) := by
  have h0 := congrFun h ValueIdx.ix0
  dsimp only [fn] at h0
  obtain ⟨hA, -⟩ := IntOp.andi_eq_one.mp h0
  have hi := Host.reduce_andi_all _ _ _ _ _ hA i
  exact real_of_abs_lt (a1 i) hi

end Cert.Proof.FiniteInputs

end
-- ==== Proof.lean ====
/-
  A batched graph propagation, a tiled kernel against a whole-array reference, equal on the extended reals.

  Both programs take integer node ids, an adjacency array `A : [512, 256, 512]` (each of 512 samples holds two
  256 × 256 halves side by side) and an embedding table, gather the samples' node features `H : [512, 256, 128]` from
  the table by the same host operations, and for every sample `b` compute `M_b · (M_b · H_b)`, where
  `M_b = α · norm + β · (1 - norm) ∘ I` mixes the symmetrically normalized adjacency
  `norm i j = adj i j · d i · d j`, `adj = A_b[:, :256] + A_b[:, 256:] + I`, `d i = (∑ j, adj i j) ^ (-1/2)`.

  The kernel runs over 32 grid points of 16 samples, a loop handling one sample per trip; it takes the reciprocal
  square root where the degree is positive and zero elsewhere, applies the column factor before the row factor, and
  fuses the mix as `norm · (α - β I) + β I`. The reference raises the degree to the power -1/2 and replaces an
  infinite value by zero, applies the row factor first, and mixes term by term.

  What joins them (each in its own module):
  * on the reals `r ^ (-1/2)` is `(√r)⁻¹` for `r > 0` and `0` for `r ≤ 0`, so the two normalizers agree on every real
    degree, and the two mixes agree by commutativity and distributivity of real arithmetic (RealLaws, Propagate) —
    this is where the precondition is used: finite adjacency entries make every degree and every factor real
    (FiniteInputs), and distributivity fails at the infinities;
  * the slab a trip stores is the sample's two propagation rounds, entry by entry (Payload); the trips' slabs are the
    rows of one function of the block, so the block written back is the 16 staged samples propagated (TripPieces);
    the blocks tile the result, which ends as every sample propagated (ArrayValue);
  * the reference's last stage read index by index is the same function (ReferenceValue), and the gathered
    features are literally the same host term on both sides (`features_eq` below).
  The three frames are the generated ones (the reference's is its generated run with the result dropped), and the
  idealization rewrote nothing, so `preserves` is `True`.
-/
import proofs.«117473_j51367808860292_2_alg».proof.Defs
import proofs.«117473_j51367808860292_2_alg».proof.Proof.Gen.Kernel
import proofs.«117473_j51367808860292_2_alg».proof.Proof.Gen.Kernel.Skeleton
import proofs.«117473_j51367808860292_2_alg».proof.Proof.Gen.Kernel.Loops
import proofs.«117473_j51367808860292_2_alg».proof.Proof.Gen.Kernel.Launch
import proofs.«117473_j51367808860292_2_alg».proof.Proof.Gen.Kernel.Points
import proofs.«117473_j51367808860292_2_alg».proof.Proof.Gen.Kernel.Frame
import proofs.«117473_j51367808860292_2_alg».proof.Proof.Gen.KernelIdeal
import proofs.«117473_j51367808860292_2_alg».proof.Proof.Gen.KernelIdeal.Skeleton
import proofs.«117473_j51367808860292_2_alg».proof.Proof.Gen.KernelIdeal.Loops
import proofs.«117473_j51367808860292_2_alg».proof.Proof.Gen.KernelIdeal.Launch
import proofs.«117473_j51367808860292_2_alg».proof.Proof.Gen.KernelIdeal.Points
import proofs.«117473_j51367808860292_2_alg».proof.Proof.Gen.KernelIdeal.Frame
import proofs.«117473_j51367808860292_2_alg».proof.Proof.Gen.ReferenceIdeal
import proofs.«117473_j51367808860292_2_alg».proof.Proof.Gen.Pre_finite_inputs
import proofs.«117473_j51367808860292_2_alg».proof.Proof.Gen.KernelIdeal.Value
import proofs.«117473_j51367808860292_2_alg».proof.Proof.Gen.ReferenceIdeal.Run
import proofs.«117473_j51367808860292_2_alg».proof.Proof.Gen.ReferenceIdeal.Read
import proofs.«117473_j51367808860292_2_alg».proof.Proof.ArrayValue
import proofs.«117473_j51367808860292_2_alg».proof.Proof.ReferenceValue
import proofs.«117473_j51367808860292_2_alg».proof.Proof.FiniteInputs
import Idealize.ShloMosaic.Lib.StableHlo.Run
import Idealize.ShloMosaic.Adequacy
import Idealize.ShloMosaic.Init

noncomputable section

namespace Cert.Proof

open Idealize.ShloMosaic Idealize.ShloMosaic.TcCoe Idealize.ShloMosaic.ValueIdx Idealize.SL.Sem
open Cert.Proof.TripPieces

/-! ## The frames and the idealization -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-! ## The two results are one function of the arguments -/

/-- The features the kernel's region finds are the reference's gather stage of the same arguments: the same host
    operations on both sides. -/
theorem features_eq (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v6 : Cert.KernelIdeal.S512x256x128.Idx → EReal)
      = Cert.ReferenceIdeal.Read.val_main_v6 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2)) := by
  dsimp only [Cert.KernelIdeal.Gen.V, Cert.KernelIdeal.Gen.hostOps0]
  after_results
  rfl

/-- On a finite adjacency array the reference's result is every sample propagated over its gathered features. -/
theorem reference_eq (x0 : Cert.ReferenceIdeal.S512x256.Idx → BitVec 32) (x1 : Cert.ReferenceIdeal.S512x256x512.Idx → EReal)
    (x2 : Cert.ReferenceIdeal.S50000x128.Idx → EReal) (hfin : ∀ i, ∃ r : ℝ, x1 i = (r : EReal)) :
    Cert.ReferenceIdeal.Read.val_main_v41 (F := Ideal) x0 x1 x2
      = blockFn x1 (Cert.ReferenceIdeal.Read.val_main_v6 (F := Ideal) x0 x2) := by
  funext i
  obtain ⟨b, r, d, rfl⟩ : ∃ (b : Fin 512) (r : Fin 256) (d : Fin 128), i = ix3 b r d := ⟨i 0, i 1, i 2, eq_ix3 i⟩
  rw [Cert.Proof.ReferenceValue.result_apply x1 x0 x2 hfin b r d]
  rfl

/-- From memories agreeing on the arguments, under the precondition, both programs end with every sample of the adjacency
    array propagated over the gathered features. -/
theorem algebraic : Cert.algebraic_KernelIdeal_ReferenceIdeal := by
  intro m ρ m' ρ' hpre hagree
  refine ⟨fun c => blockFn
      (m ((c.tc : Thread Cert.KernelIdeal.nD Cert.KernelIdeal.τ).loc Cert.KernelIdeal.main_arg1))
      (Cert.ReferenceIdeal.Read.val_main_v6 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))), ?_, ?_⟩
  · refine (θ_run Cert.KernelIdeal.defs _ _).mono (fun r h c => ⟨(h c).1.trans ?_, (h c).2⟩) (Cert.Proof.ArrayValue.run m ρ)
    have hA : Cert.Proof.ArrayValue.adjArr m c
        = m ((c.tc : Thread Cert.KernelIdeal.nD Cert.KernelIdeal.τ).loc Cert.KernelIdeal.main_arg1) :=
      Cert.KernelIdeal.Gen.V_main_arg1 m c
    have hH : Cert.Proof.ArrayValue.featArr m c = _ := features_eq m c
    rw [hA, hH]
  · refine (θ_run Cert.ReferenceIdeal.defs _ _).mono (fun r h c => ⟨?_, (h c).2⟩)
      (Cert.ReferenceIdeal.Value.run (F := Ideal) m' ρ')
    rw [(h c).1, Cert.ReferenceIdeal.Read.val_main_v41_eq, (hagree c).1, (hagree c).2.1, (hagree c).2.2]
    exact reference_eq _ _ _ (fun i => Cert.Proof.FiniteInputs.adj_real _ _ _ (hpre c) i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
